-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S131072x64 : Shape := ⟨2, ![131072, 64]⟩
abbrev S512x576 : Shape := ⟨2, ![512, 576]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S131072x64 : S_.BroadcastsInDim S131072x64 (![] : Fin 0 → Fin S131072x64.rank)
  reducesTo_S131072x64_S_d0_1 : S131072x64.ReducesTo [0, 1] S_
  bcast_S_S512x576 : S_.BroadcastsInDim S512x576 (![] : Fin 0 → Fin S512x576.rank)
  reducesTo_S512x576_S_d0_1 : S512x576.ReducesTo [0, 1] S_

variable [Facts]

def fn_part1 {F : FTy → Type} [FloatOps F] (main_v13 : IVec S_ 1) (main_v16 : IVec S512x576 1) : IVec S_ 1 :=
  let main_c_5 : IVec S_ 1 := constantI S_ 1 1#1
  let main_v17 : IVec S_ 1 := (fun x v => Host.reduce IntOp.andi x v reducesTo_S512x576_S_d0_1 h_S_) main_v16 main_c_5
  let main_v18 : IVec S_ 1 := andi main_v13 main_v17
  main_v18

def fn {F : FTy → Type} [FloatOps F] (main_arg0 : FVec F S131072x512 .f32) (main_arg1 : FVec F S131072x64 .f32) (main_arg2 : FVec F S512x576 .f32) (main_arg3 : FVec F S512x576 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S131072x64 .f32 := Host.absf main_arg1
  let main_cst_0 : FVec F S_ .f32 := constant S_ .f32 0x7F800000#32
  let main_v5 : FVec F S131072x64 .f32 := broadcastInDim S131072x64 ![] bcast_S_S131072x64 main_cst_0
  let main_v6 : IVec S131072x64 1 := cmpf .olt main_v4 main_v5
  let main_c_1 : IVec S_ 1 := constantI S_ 1 1#1
  let main_v7 : IVec S_ 1 := (fun x v => Host.reduce IntOp.andi x v reducesTo_S131072x64_S_d0_1 h_S_) main_v6 main_c_1
  let main_v8 : IVec S_ 1 := andi main_v3 main_v7
  let main_v9 : FVec F S512x576 .f32 := Host.absf main_arg2
  let main_cst_2 : FVec F S_ .f32 := constant S_ .f32 0x7F800000#32
  let main_v10 : FVec F S512x576 .f32 := broadcastInDim S512x576 ![] bcast_S_S512x576 main_cst_2
  let main_v11 : IVec S512x576 1 := cmpf .olt main_v9 main_v10
  let main_c_3 : IVec S_ 1 := constantI S_ 1 1#1
  let main_v12 : IVec S_ 1 := (fun x v => Host.reduce IntOp.andi x v reducesTo_S512x576_S_d0_1 h_S_) main_v11 main_c_3
  let main_v13 : IVec S_ 1 := andi main_v8 main_v12
  let main_v14 : FVec F S512x576 .f32 := Host.absf main_arg3
  let main_cst_4 : FVec F S_ .f32 := constant S_ .f32 0x7F800000#32
  let main_v15 : FVec F S512x576 .f32 := broadcastInDim S512x576 ![] bcast_S_S512x576 main_cst_4
  let main_v16 : IVec S512x576 1 := cmpf .olt main_v14 main_v15
  fn_part1 (F := F) main_v13 main_v16
-- ==== Kernel.lean ====
abbrev S131072x512 : Shape := ⟨2, ![131072, 512]⟩
abbrev S131072x64 : Shape := ⟨2, ![131072, 64]⟩
abbrev S512x576 : Shape := ⟨2, ![512, 576]⟩
abbrev S512 : Shape := ⟨1, ![512]⟩
abbrev S512x1 : Shape := ⟨2, ![512, 1]⟩
abbrev S576 : Shape := ⟨1, ![576]⟩
abbrev S1x576 : Shape := ⟨2, ![1, 576]⟩
abbrev S_ : Shape := ⟨0, ![]⟩
abbrev S576x512 : Shape := ⟨2, ![576, 512]⟩
abbrev S64x512 : Shape := ⟨2, ![64, 512]⟩
abbrev S512x512 : Shape := ⟨2, ![512, 512]⟩
abbrev S64x1024 : Shape := ⟨2, ![64, 1024]⟩
abbrev S512x1024 : Shape := ⟨2, ![512, 1024]⟩
abbrev S131072x1 : Shape := ⟨2, ![131072, 1]⟩
abbrev S2048x512 : Shape := ⟨2, ![2048, 512]⟩
abbrev S2048x64 : Shape := ⟨2, ![2048, 64]⟩
abbrev S2048x1 : Shape := ⟨2, ![2048, 1]⟩
abbrev S2048x1024 : Shape := ⟨2, ![2048, 1024]⟩
abbrev S2048 : Shape := ⟨1, ![2048]⟩
abbrev S131072 : Shape := ⟨1, ![131072]⟩

abbrev nBuf : Space → Nat
  | .hbm => 30
  | .vmem => 10
  | .smem => 0
  | _ => 0

abbrev bufTy : (tb : Table) → Fin (tcTables nBuf tb) → BufTy
  | .hbm, ⟨0, _⟩ => ⟨S131072x512, .f32⟩
  | .hbm, ⟨1, _⟩ => ⟨S131072x64, .f32⟩
  | .hbm, ⟨2, _⟩ => ⟨S512x576, .f32⟩
  | .hbm, ⟨3, _⟩ => ⟨S512x576, .f32⟩
  | .hbm, ⟨4, _⟩ => ⟨S512, .i32⟩
  | .hbm, ⟨5, _⟩ => ⟨S512x1, .i32⟩
  | .hbm, ⟨6, _⟩ => ⟨S576, .i32⟩
  | .hbm, ⟨7, _⟩ => ⟨S1x576, .i32⟩
  | .hbm, ⟨8, _⟩ => ⟨S_, .i32⟩
  | .hbm, ⟨9, _⟩ => ⟨S512x1, .i32⟩
  | .hbm, ⟨10, _⟩ => ⟨S512x1, .i32⟩
  | .hbm, ⟨11, _⟩ => ⟨S512x576, .i32⟩
  | .hbm, ⟨12, _⟩ => ⟨S512x576, .i32⟩
  | .hbm, ⟨13, _⟩ => ⟨S512x576, .i1⟩
  | .hbm, ⟨14, _⟩ => ⟨S512x576, .f32⟩
  | .hbm, ⟨15, _⟩ => ⟨S512x576, .f32⟩
  | .hbm, ⟨16, _⟩ => ⟨S576x512, .f32⟩
  | .hbm, ⟨17, _⟩ => ⟨S512x576, .f32⟩
  | .hbm, ⟨18, _⟩ => ⟨S576x512, .f32⟩
  | .hbm, ⟨19, _⟩ => ⟨S64x512, .f32⟩
  | .hbm, ⟨20, _⟩ => ⟨S512x512, .f32⟩
  | .hbm, ⟨21, _⟩ => ⟨S64x512, .f32⟩
  | .hbm, ⟨22, _⟩ => ⟨S512x512, .f32⟩
  | .hbm, ⟨23, _⟩ => ⟨S64x1024, .f32⟩
  | .hbm, ⟨24, _⟩ => ⟨S64x1024, .bf16⟩
  | .hbm, ⟨25, _⟩ => ⟨S512x1024, .f32⟩
  | .hbm, ⟨26, _⟩ => ⟨S512x1024, .bf16⟩
  | .hbm, ⟨27, _⟩ => ⟨S131072x512, .f32⟩
  | .hbm, ⟨28, _⟩ => ⟨S131072x1, .f32⟩
  | .hbm, ⟨29, _⟩ => ⟨S131072, .f32⟩
  | .local _ .vmem, ⟨0, _⟩ => ⟨S2048x512, .f32⟩
  | .local _ .vmem, ⟨1, _⟩ => ⟨S2048x512, .f32⟩
  | .local _ .vmem, ⟨2, _⟩ => ⟨S2048x64, .f32⟩
  | .local _ .vmem, ⟨3, _⟩ => ⟨S2048x64, .f32⟩
  | .local _ .vmem, ⟨4, _⟩ => ⟨S64x1024, .bf16⟩
  | .local _ .vmem, ⟨5, _⟩ => ⟨S512x1024, .bf16⟩
  | .local _ .vmem, ⟨6, _⟩ => ⟨S2048x512, .f32⟩
  | .local _ .vmem, ⟨7, _⟩ => ⟨S2048x512, .f32⟩
  | .local _ .vmem, ⟨8, _⟩ => ⟨S2048x1, .f32⟩
  | .local _ .vmem, ⟨9, _⟩ => ⟨S2048x1, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev main_v23 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S512_S512x1_0 : S512.BroadcastsInDim S512x1 (![0] : Fin 1 → Fin S512x1.rank)
  bcast_S576_S1x576_1 : S576.BroadcastsInDim S1x576 (![1] : Fin 1 → Fin S1x576.rank)
  bcast_S_S512x1 : S_.BroadcastsInDim S512x1 (![] : Fin 0 → Fin S512x1.rank)
  bcast_S1x576_S512x576_0_1 : S1x576.BroadcastsInDim S512x576 (![0, 1] : Fin 2 → Fin S512x576.rank)
  bcast_S512x1_S512x576_0_1 : S512x1.BroadcastsInDim S512x576 (![0, 1] : Fin 2 → Fin S512x576.rank)
  transposes_S512x576_S576x512_1_0 : S512x576.Transposes [1, 0] S576x512
  slices_S576x512_S64x512_0_0 : S576x512.Slices ![0, 0] S64x512
  slices_S576x512_S512x512_64_0 : S576x512.Slices ![64, 0] S512x512
  concatenates_S64x512_S64x512_S64x1024_d1 : Shape.Concatenates [S64x512, S64x512] S64x1024 1
  bitsLt_bf16_f32 : FTy.bits .bf16 < FTy.bits .f32
  concatenates_S512x512_S512x512_S512x1024_d1 : Shape.Concatenates [S512x512, S512x512] S512x1024 1
  inb_S2048x512_S2048x512_0_0 : ∀ a, (![0, 0] : Fin 2 → Nat) a + S2048x512.size a ≤ S2048x512.size a
  h_S2048x512 : 0 < S2048x512.numel
  inb_S2048x64_S2048x64_0_0 : ∀ a, (![0, 0] : Fin 2 → Nat) a + S2048x64.size a ≤ S2048x64.size a
  h_S2048x64 : 0 < S2048x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S2048x1024_o0_0_S2048x512 : S2048x1024.Slices ![0, 0] S2048x512
  slices_S2048x1024_o0_512_S2048x512 : S2048x1024.Slices ![0, 512] S2048x512
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S131072x1_S131072 : S131072x1.ShapeCasts S131072
  dot_S2048x64_S64x1024_S2048x1024_1_0_0_1_n_n_wf : DotDims.WF S2048x64 S64x1024 S2048x1024 [1] [0] [0] [1] [] []
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S131072x64.size a
  hwx0_1 : ∀ i : grid0.Coords, EltTy.bits .f32 = 32 ∨ (Rect.block (s := S131072x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .bf16 = 32 ∨ (Rect.block (s := S64x1024) S64x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .f32 = 32 ∨ (Rect.block (s := S131072x512) S2048x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S131072x1.size a
  hwx0_5 : ∀ i : grid0.Coords, EltTy.bits .f32 = 32 ∨ (Rect.block (s := S131072x1) S2048x1.size (cc0_transform_5 i) (hinb0_5 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S2048x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x512 : Shape := ⟨2, ![131072, 512]⟩
abbrev S131072x64 : Shape := ⟨2, ![131072, 64]⟩
abbrev S512x576 : Shape := ⟨2, ![512, 576]⟩
abbrev S131072x576 : Shape := ⟨2, ![131072, 576]⟩
abbrev S576 : Shape := ⟨1, ![576]⟩
abbrev S1x576 : Shape := ⟨2, ![1, 576]⟩
abbrev S512 : Shape := ⟨1, ![512]⟩
abbrev S_ : Shape := ⟨0, ![]⟩
abbrev S512x1 : Shape := ⟨2, ![512, 1]⟩
abbrev S576x512 : Shape := ⟨2, ![576, 512]⟩
abbrev S131072 : Shape := ⟨1, ![131072]⟩

abbrev nBuf : Space → Nat
  | .hbm => 27
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S131072x64, .f32⟩
  | .hbm, ⟨2, _⟩ => ⟨S512x576, .f32⟩
  | .hbm, ⟨3, _⟩ => ⟨S512x576, .f32⟩
  | .hbm, ⟨4, _⟩ => ⟨S131072x576, .f32⟩
  | .hbm, ⟨5, _⟩ => ⟨S576, .i32⟩
  | .hbm, ⟨6, _⟩ => ⟨S1x576, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512x1, .i32⟩
  | .hbm, ⟨12, _⟩ => ⟨S512x576, .i32⟩
  | .hbm, ⟨13, _⟩ => ⟨S512x576, .i32⟩
  | .hbm, ⟨14, _⟩ => ⟨S512x576, .i1⟩
  | .hbm, ⟨15, _⟩ => ⟨S512x576, .f32⟩
  | .hbm, ⟨16, _⟩ => ⟨S512x576, .f32⟩
  | .hbm, ⟨17, _⟩ => ⟨S576x512, .f32⟩
  | .hbm, ⟨18, _⟩ => ⟨S131072x512, .f32⟩
  | .hbm, ⟨19, _⟩ => ⟨S512x576, .f32⟩
  | .hbm, ⟨20, _⟩ => ⟨S576x512, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  concatenates_S131072x64_S131072x512_S131072x576_d1 : Shape.Concatenates [S131072x64, S131072x512] S131072x576 1
  bcast_S576_S1x576_1 : S576.BroadcastsInDim S1x576 (![1] : Fin 1 → Fin S1x576.rank)
  bcast_S_S512 : S_.BroadcastsInDim S512 (![] : Fin 0 → Fin S512.rank)
  bcast_S512_S512x1_0 : S512.BroadcastsInDim S512x1 (![0] : Fin 1 → Fin S512x1.rank)
  bcast_S1x576_S512x576_0_1 : S1x576.BroadcastsInDim S512x576 (![0, 1] : Fin 2 → Fin S512x576.rank)
  bcast_S512x1_S512x576_0_1 : S512x1.BroadcastsInDim S512x576 (![0, 1] : Fin 2 → Fin S512x576.rank)
  transposes_S512x576_S576x512_1_0 : S512x576.Transposes [1, 0] S576x512
  reducesTo_S131072x512_S131072_d1 : S131072x512.ReducesTo [1] S131072
  h_S_ : 0 < S_.numel
  dot_S131072x576_S576x512_S131072x512_1_0_0_1_n_n_wf : DotDims.WF S131072x576 S576x512 S131072x512 [1] [0] [0] [1] [] []

variable [Facts₀]

def dot_S131072x576_S576x512_S131072x512_1_0_0_1_n_n : DotDims S131072x576 S576x512 S131072x512 where
  lhsContracting := [1]
  rhsContracting := [0]
  lhsNonContracting := [0]
  rhsNonContracting := [1]
  lhsBatch := []
  rhsBatch := []
  wf := dot_S131072x576_S576x512_S131072x512_1_0_0_1_n_n_wf

class Facts : Prop extends Facts₀ where

variable [Facts]
-- ==== Proof.Spec.lean ====
/-
  The affine autoregressive map as functions of the argument arrays, over the extended reals.

  Inputs: `X : [131072, 512]`, `c : [131072, 64]` and two weight arrays `WA WB : [576, 512]` (the masked, transposed
  parameters).  Row `b` of the joined input `(c | X) : [131072, 576]` is contracted against column `o` of a weight
  array; the contraction over the 576 joined columns is written here already SPLIT where `c` ends:
      lin X c W b o = ∑ k < 64, c[b, k] · W[k, o]  +  ∑ k < 512, X[b, k] · W[64 + k, o].
  The two results are
      z[b, o]   = X[b, o] · exp (lin X c WA b o) + lin X c WB b o,
      logdet[b] = ∑ o < 512, lin X c WA b o.
  A sum over 576 terms is the sum of its first 64 and its last 512 terms (`sum_split`): addition on the extended
  reals is associative and commutative, so no finiteness is needed.

  The same map blockwise, as the kernel computes it: a block of 2048 rows, the two weight arrays joined side by side
  into [64, 1024] and [512, 1024] arrays whose left halves (columns `o`) carry `WA` and right halves (columns
  `512 + o`) carry `WB` (`blockLin`, `klin`).
-/
import Idealize.ShloMosaic.PureOps.Ideal
import Idealize.ShloMosaic.PureOps.Ideal.Laws
import Idealize.ShloMosaic.Lib.ValueIdx

noncomputable section

open scoped BigOperators

namespace Cert.Flow

open Idealize.ShloMosaic Idealize.ShloMosaic.ValueIdx

/-- Row `k` of a [576, ·] weight array, `k < 64`: the rows that meet `c`. -/
abbrev lo (k : Fin 64) : Fin 576 := ⟨k.val, by omega⟩
/-- Row `64 + k`, `k < 512`: the rows that meet `X`. -/
abbrev hi (k : Fin 512) : Fin 576 := ⟨64 + k.val, by omega⟩
/-- Column `o` of the left half of a [·, 1024] joined weight array. -/
abbrev lft (o : Fin 512) : Fin 1024 := ⟨o.val, by omega⟩
/-- Column `512 + o`: the right half. -/
abbrev rgt (o : Fin 512) : Fin 1024 := ⟨512 + o.val, by omega⟩

/-- A sum over 576 terms is the sum of its first 64 and of its last 512. -/
theorem sum_split (f : Fin 576 → EReal) : ∑ d : Fin 576, f d = ∑ k : Fin 64, f (lo k) + ∑ k : Fin 512, f (hi k) := by
  have h := Fin.sum_univ_add (M := EReal) (a := 64) (b := 512) f
  refine h.trans ?_
  congr 1

/-- Row `b` of `(c | X)` against column `o` of `W`, the contraction split where `c` ends. -/
def lin (X : (⟨2, ![131072, 512]⟩ : Shape).Idx → EReal) (c : (⟨2, ![131072, 64]⟩ : Shape).Idx → EReal)
    (W : (⟨2, ![576, 512]⟩ : Shape).Idx → EReal) (b : Fin 131072) (o : Fin 512) : EReal :=
  ∑ k : Fin 64, c (ix2 b k) * W (ix2 (lo k) o) + ∑ k : Fin 512, X (ix2 b k) * W (ix2 (hi k) o)

/-- `z[b, o]`. -/
def zAt (X : (⟨2, ![131072, 512]⟩ : Shape).Idx → EReal) (c : (⟨2, ![131072, 64]⟩ : Shape).Idx → EReal)
    (WA WB : (⟨2, ![576, 512]⟩ : Shape).Idx → EReal) (b : Fin 131072) (o : Fin 512) : EReal :=
  X (ix2 b o) * Ideal.exp (lin X c WA b o) + lin X c WB b o

/-- The first result, the whole array. -/
def flowZ (X : (⟨2, ![131072, 512]⟩ : Shape).Idx → EReal) (c : (⟨2, ![131072, 64]⟩ : Shape).Idx → EReal)
    (WA WB : (⟨2, ![576, 512]⟩ : Shape).Idx → EReal) : (⟨2, ![131072, 512]⟩ : Shape).Idx → EReal :=
  fun i => zAt X c WA WB (i 0) (i 1)

/-- `logdet[b]`. -/
def lAt (X : (⟨2, ![131072, 512]⟩ : Shape).Idx → EReal) (c : (⟨2, ![131072, 64]⟩ : Shape).Idx → EReal)
    (WA : (⟨2, ![576, 512]⟩ : Shape).Idx → EReal) (b : Fin 131072) : EReal :=
  ∑ o : Fin 512, lin X c WA b o

/-- The second result, the whole array. -/
def flowL (X : (⟨2, ![131072, 512]⟩ : Shape).Idx → EReal) (c : (⟨2, ![131072, 64]⟩ : Shape).Idx → EReal)
    (WA : (⟨2, ![576, 512]⟩ : Shape).Idx → EReal) : (⟨1, ![131072]⟩ : Shape).Idx → EReal :=
  fun i => lAt X c WA (i 0)

theorem flowZ_ix2 (X : (⟨2, ![131072, 512]⟩ : Shape).Idx → EReal) (c : (⟨2, ![131072, 64]⟩ : Shape).Idx → EReal)
    (WA WB : (⟨2, ![576, 512]⟩ : Shape).Idx → EReal) (b : Fin 131072) (o : Fin 512) :
    flowZ X c WA WB (ix2 b o) = zAt X c WA WB b o := rfl

theorem flowL_ix1 (X : (⟨2, ![131072, 512]⟩ : Shape).Idx → EReal) (c : (⟨2, ![131072, 64]⟩ : Shape).Idx → EReal)
    (WA : (⟨2, ![576, 512]⟩ : Shape).Idx → EReal) (b : Fin 131072) :
    flowL X c WA (ix1 b) = lAt X c WA b := rfl

/-! ## Blockwise: 2048 rows against the joined weight arrays -/

/-- Row `p` of a block of `(c | X)` against column `n` of the joined weights `(wc ; wx)`. -/
def blockLin (x0 : (⟨2, ![2048, 512]⟩ : Shape).Idx → EReal) (x1 : (⟨2, ![2048, 64]⟩ : Shape).Idx → EReal)
    (x2 : (⟨2, ![64, 1024]⟩ : Shape).Idx → EReal) (x3 : (⟨2, ![512, 1024]⟩ : Shape).Idx → EReal)
    (p : Fin 2048) (n : Fin 1024) : EReal :=
  ∑ k : Fin 64, x1 (ix2 p k) * x2 (ix2 k n) + ∑ k : Fin 512, x0 (ix2 p k) * x3 (ix2 k n)

/-- The same against the whole arrays: row `b`. -/
def klin (X : (⟨2, ![131072, 512]⟩ : Shape).Idx → EReal) (c : (⟨2, ![131072, 64]⟩ : Shape).Idx → EReal)
    (wc : (⟨2, ![64, 1024]⟩ : Shape).Idx → EReal) (wx : (⟨2, ![512, 1024]⟩ : Shape).Idx → EReal)
    (b : Fin 131072) (n : Fin 1024) : EReal :=
  ∑ k : Fin 64, c (ix2 b k) * wc (ix2 k n) + ∑ k : Fin 512, X (ix2 b k) * wx (ix2 k n)

/-- The first result from the joined weights. -/
def kZ (X : (⟨2, ![131072, 512]⟩ : Shape).Idx → EReal) (c : (⟨2, ![131072, 64]⟩ : Shape).Idx → EReal)
    (wc : (⟨2, ![64, 1024]⟩ : Shape).Idx → EReal) (wx : (⟨2, ![512, 1024]⟩ : Shape).Idx → EReal) :
    (⟨2, ![131072, 512]⟩ : Shape).Idx → EReal :=
  fun i => X (ix2 (i 0) (i 1)) * Ideal.exp (klin X c wc wx (i 0) (lft (i 1))) + klin X c wc wx (i 0) (rgt (i 1))

/-- The second result from the joined weights, as the [131072, 1] column the kernel writes. -/
def kL (X : (⟨2, ![131072, 512]⟩ : Shape).Idx → EReal) (c : (⟨2, ![131072, 64]⟩ : Shape).Idx → EReal)
    (wc : (⟨2, ![64, 1024]⟩ : Shape).Idx → EReal) (wx : (⟨2, ![512, 1024]⟩ : Shape).Idx → EReal) :
    (⟨2, ![131072, 1]⟩ : Shape).Idx → EReal :=
  fun i => ∑ o : Fin 512, klin X c wc wx (i 0) (lft o)

/-- When the joined weights' halves are `WA` and `WB`, the joined contraction is the split one. -/
theorem klin_lft (X : (⟨2, ![131072, 512]⟩ : Shape).Idx → EReal) (c : (⟨2, ![131072, 64]⟩ : Shape).Idx → EReal)
    (wc : (⟨2, ![64, 1024]⟩ : Shape).Idx → EReal) (wx : (⟨2, ![512, 1024]⟩ : Shape).Idx → EReal)
    (W : (⟨2, ![576, 512]⟩ : Shape).Idx → EReal)
    (hc : ∀ (k : Fin 64) (o : Fin 512), wc (ix2 k (lft o)) = W (ix2 (lo k) o))
    (hx : ∀ (k : Fin 512) (o : Fin 512), wx (ix2 k (lft o)) = W (ix2 (hi k) o))
    (b : Fin 131072) (o : Fin 512) : klin X c wc wx b (lft o) = lin X c W b o := by
  unfold klin lin
  congr 1
  · exact Finset.sum_congr rfl fun k _ => by rw [hc k o]
  · exact Finset.sum_congr rfl fun k _ => by rw [hx k o]

theorem klin_rgt (X : (⟨2, ![131072, 512]⟩ : Shape).Idx → EReal) (c : (⟨2, ![131072, 64]⟩ : Shape).Idx → EReal)
    (wc : (⟨2, ![64, 1024]⟩ : Shape).Idx → EReal) (wx : (⟨2, ![512, 1024]⟩ : Shape).Idx → EReal)
    (W : (⟨2, ![576, 512]⟩ : Shape).Idx → EReal)
    (hc : ∀ (k : Fin 64) (o : Fin 512), wc (ix2 k (rgt o)) = W (ix2 (lo k) o))
    (hx : ∀ (k : Fin 512) (o : Fin 512), wx (ix2 k (rgt o)) = W (ix2 (hi k) o))
    (b : Fin 131072) (o : Fin 512) : klin X c wc wx b (rgt o) = lin X c W b o := by
  unfold klin lin
  congr 1
  · exact Finset.sum_congr rfl fun k _ => by rw [hc k o]
  · exact Finset.sum_congr rfl fun k _ => by rw [hx k o]

end Cert.Flow

end
-- ==== Proof.RefFlow.lean ====
/-
  The reference's two results, stage by stage, are the affine autoregressive map of `Spec.lean`:
  its contraction over the 576 joined columns of `(c | X)` is split where `c` ends (`Cert.Flow.sum_split`), the joined
  input read on each side of the seam.
-/
import proofs.«144056_j62895501083197_2_alg».proof.Proof.Gen.ReferenceIdeal.Read
import proofs.«144056_j62895501083197_2_alg».proof.Proof.Spec
import Idealize.ShloMosaic.Lib.Pipeline.Value
import Idealize.ShloMosaic.Lib.ValueIdx
import Idealize.ShloMosaic.PureOps.Ideal.Laws

noncomputable section

open scoped BigOperators

namespace Cert.Flow.Ref

open Cert.ReferenceIdeal Cert.ReferenceIdeal.Gen Cert.ReferenceIdeal.Read Idealize.ShloMosaic Idealize.ShloMosaic.TcCoe
open Idealize.ShloMosaic.ValueIdx

/-- The joined input left of the seam is `c`. -/
private theorem cat_lo (X : FVec Ideal S131072x512 .f32) (c : FVec Ideal S131072x64 .f32) (b : Fin 131072) (k : Fin 64) :
    val_main_v0 (F := Ideal) X c (ix2 b (lo k)) = c (ix2 b k) := by
  unfold val_main_v0
  exact concatenate_pair_apply_left (1 : Fin S131072x576.rank) c X
    concatenates_S131072x64_S131072x512_S131072x576_d1 (ix2 b (lo k)) rfl (ix2 b k)
    (fun a => match a with | ⟨0, _⟩ => rfl | ⟨1, _⟩ => rfl)

/-- The joined input right of the seam is `X`, its column the 64 columns of `c` less. -/
private theorem cat_hi (X : FVec Ideal S131072x512 .f32) (c : FVec Ideal S131072x64 .f32) (b : Fin 131072) (k : Fin 512) :
    val_main_v0 (F := Ideal) X c (ix2 b (hi k)) = X (ix2 b k) := by
  unfold val_main_v0
  exact concatenate_pair_apply_right (1 : Fin S131072x576.rank) c X
    concatenates_S131072x64_S131072x512_S131072x576_d1 (ix2 b (hi k)) rfl rfl (ix2 b k)
    (fun a ha => match a, ha with
      | ⟨0, _⟩, _ => rfl
      | ⟨1, _⟩, ha => absurd (Fin.ext rfl) ha)
    (by show k.val + 64 = 64 + k.val; omega)

/-- Row `b` of the joined input against column `o` of a weight array: the sum over the 576 joined columns,
    split where `c` ends and each side read from its own array. -/
private theorem dot_lin (X : FVec Ideal S131072x512 .f32) (c : FVec Ideal S131072x64 .f32)
    (W : FVec Ideal S576x512 .f32) (b : Fin 131072) (o : Fin 512) :
    ∑ d : Fin 576, val_main_v0 (F := Ideal) X c (ix2 b d) * W (ix2 d o) = lin X c W b o := by
  refine (Cert.Flow.sum_split (fun d => val_main_v0 (F := Ideal) X c (ix2 b d) * W (ix2 d o))).trans ?_
  unfold lin
  congr 1
  · exact Finset.sum_congr rfl fun k _ => by rw [cat_lo]
  · exact Finset.sum_congr rfl fun k _ => by rw [cat_hi]

/-- The contraction reads the joined input at row `b`, column `d` … -/
private theorem lidx_ix2 (b : Fin 131072) (o : Fin 512) (d : Fin 576) : lidx_main_v13 (ix2 b o) d = ix2 b d :=
  funext fun a => Fin.ext (by match a with | ⟨0, _⟩ => rfl | ⟨1, _⟩ => rfl)

/-- … and the weight array at row `d`, column `o`. -/
private theorem ridx_ix2 (b : Fin 131072) (o : Fin 512) (d : Fin 576) : ridx_main_v13 (ix2 b o) d = ix2 d o :=
  funext fun a => Fin.ext (by match a with | ⟨0, _⟩ => rfl | ⟨1, _⟩ => rfl)

/-- The first contraction at `[b, o]` is `lin` over the first weight array. -/
private theorem v13_at (X : FVec Ideal S131072x512 .f32) (c : FVec Ideal S131072x64 .f32) (PA : FVec Ideal S512x576 .f32)
    (b : Fin 131072) (o : Fin 512) :
    val_main_v13 (F := Ideal) X c PA (ix2 b o) = lin X c (val_main_v12 (F := Ideal) PA) b o := by
  rw [val_main_v13_apply]
  refine Eq.trans (Finset.sum_congr rfl fun d _ => ?_) (dot_lin X c (val_main_v12 (F := Ideal) PA) b o)
  rw [lidx_ix2, ridx_ix2]

/-- The second contraction at `[b, o]` is `lin` over the second weight array. -/
private theorem v16_at (X : FVec Ideal S131072x512 .f32) (c : FVec Ideal S131072x64 .f32) (PB : FVec Ideal S512x576 .f32)
    (b : Fin 131072) (o : Fin 512) :
    val_main_v16 (F := Ideal) X c PB (ix2 b o) = lin X c (val_main_v15 (F := Ideal) PB) b o := by
  rw [val_main_v16_apply]
  refine Eq.trans (Finset.sum_congr rfl fun d _ => ?_) (dot_lin X c (val_main_v15 (F := Ideal) PB) b o)
  exact congrArg₂ (· * ·) (congrArg _ (lidx_ix2 b o d)) (congrArg _ (ridx_ix2 b o d))

/-- The row sum reads the first contraction at row `b`, column `k`. -/
private theorem idx20_ix (b : Fin 131072) (k : Fin 512) : idx_main_v20 (ix1 b) k = ix2 b k :=
  funext fun a => Fin.ext (by match a with | ⟨0, _⟩ => rfl | ⟨1, _⟩ => rfl)

/-- The reference's first result is `z` over its own masked, transposed weights. -/
theorem ref_z (X : FVec Ideal S131072x512 .f32) (c : FVec Ideal S131072x64 .f32) (PA PB : FVec Ideal S512x576 .f32) :
    val_main_v19 (F := Ideal) X c PA PB
      = Cert.Flow.flowZ X c (val_main_v12 (F := Ideal) PA) (val_main_v15 (F := Ideal) PB) := by
  funext i
  obtain ⟨b, o, rfl⟩ : ∃ (b : Fin 131072) (o : Fin 512), i = ix2 b o := ⟨i 0, i 1, eq_ix2 i⟩
  rw [Cert.Flow.flowZ_ix2]
  unfold Cert.Flow.zAt
  rw [val_main_v19_apply, val_main_v18_apply, val_main_v17_apply, Ideal.addf_def, Ideal.mulf_def,
    Ideal.hostUnary_exp_def, v13_at, v16_at]

/-- The reference's second result is `logdet` over its own masked, transposed weights. -/
theorem ref_l (X : FVec Ideal S131072x512 .f32) (c : FVec Ideal S131072x64 .f32) (PA : FVec Ideal S512x576 .f32) :
    val_main_v20 (F := Ideal) X c PA = Cert.Flow.flowL X c (val_main_v12 (F := Ideal) PA) := by
  funext i
  obtain ⟨b, rfl⟩ : ∃ (b : Fin 131072), i = ix1 b := ⟨i 0, eq_ix1 i⟩
  rw [Cert.Flow.flowL_ix1]
  unfold Cert.Flow.lAt
  rw [val_main_v20_apply, val_main_cst_apply, Ideal.ofBits_def, Ideal.ofBits_zero_f32, zero_add]
  refine Finset.sum_congr rfl fun k _ => ?_
  rw [idx20_ix, v13_at]

end Cert.Flow.Ref

end
-- ==== Proof.Weights.lean ====
/-
  The two weight arrays the kernel's region is launched with, as functions of the parameter arrays.

  Before the region the program builds a 0/1 mask `M[r, d] = (d < 64 + r)` on [512, 576], the masked and transposed
  parameters `W P = (P · M)ᵀ : [576, 512]`, cuts each at row 64 and joins the pieces of `PA` and `PB` side by side:
      wc = (W PA)[0:64, :]  | (W PB)[0:64, :]   : [64, 1024],
      wx = (W PA)[64:576, :] | (W PB)[64:576, :] : [512, 1024]
  (the narrowing of the float format is the identity over the extended reals).  So column `o` of the left half of
  `wc` / `wx` is column `o` of `W PA` at rows `k` / `64 + k`, and column `512 + o` the same of `W PB`.
  The reference builds the same mask with the addition and one broadcast in the other order; the two masks agree at
  every index (both are `(d < 64 + r)` as words), so `W P` is the reference's masked, transposed parameter array.
-/
import proofs.«144056_j62895501083197_2_alg».proof.Proof.Gen.KernelIdeal.Frame
import proofs.«144056_j62895501083197_2_alg».proof.Proof.Gen.ReferenceIdeal.Read
import proofs.«144056_j62895501083197_2_alg».proof.Proof.Spec
import Idealize.ShloMosaic.Lib.Pipeline.Value
import Idealize.ShloMosaic.Lib.ValueIdx
import Idealize.ShloMosaic.Lib.StableHlo.Run

noncomputable section

namespace Cert.Flow.Weights

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-! ## The arrays as terms -/

/-- The mask `M[r, d] = (d < 64 + r)`, as the kernel's program builds it. -/
def mask : FVec F S512x576 .f32 :=
  uitofp .f32 (cmpi .slt
    (broadcastInDim S512x576 ![0, 1] bcast_S1x576_S512x576_0_1 (broadcastInDim S1x576 ![1] bcast_S576_S1x576_1 (iotaInDim S576 32 0)))
    (broadcastInDim S512x576 ![0, 1] bcast_S512x1_S512x576_0_1
      (addi (broadcastInDim S512x1 ![] bcast_S_S512x1 (constantI S_ 32 64#32)) (broadcastInDim S512x1 ![0] bcast_S512_S512x1_0 (iotaInDim S512 32 0)))))

/-- The masked, transposed parameters `(P · M)ᵀ`. -/
def wT (P : FVec F S512x576 .f32) : FVec F S576x512 .f32 :=
  transpose S576x512 [1, 0] (mulf P (mask (F := F))) transposes_S512x576_S576x512_1_0

/-- The rows that meet `c`, of `PA` and `PB` side by side. -/
def wc (PA PB : FVec F S512x576 .f32) : FVec F S64x1024 .bf16 :=
  truncf .bf16 (concatenate S64x1024 1
    [⟨S64x512, extractStridedSlice S64x512 ![0, 0] (wT PA) slices_S576x512_S64x512_0_0⟩,
     ⟨S64x512, extractStridedSlice S64x512 ![0, 0] (wT PB) slices_S576x512_S64x512_0_0⟩]
    concatenates_S64x512_S64x512_S64x1024_d1) bitsLt_bf16_f32

/-- The rows that meet `X`, of `PA` and `PB` side by side. -/
def wx (PA PB : FVec F S512x576 .f32) : FVec F S512x1024 .bf16 :=
  truncf .bf16 (concatenate S512x1024 1
    [⟨S512x512, extractStridedSlice S512x512 ![64, 0] (wT PA) slices_S576x512_S512x512_64_0⟩,
     ⟨S512x512, extractStridedSlice S512x512 ![64, 0] (wT PB) slices_S576x512_S512x512_64_0⟩]
    concatenates_S512x512_S512x512_S512x1024_d1) bitsLt_bf16_f32

variable (m : (ℓ : Loc nD τ sig) → Buf (Elt F) ℓ)

/-- The third window's array, as the region finds it. -/
theorem V_wc (c : Dev nD) :
    (V m c main_v19 : S64x1024.Idx → Elt F .bf16) = wc (m ((c : Thread nD τ).loc main_arg2)) (m ((c : Thread nD τ).loc main_arg3)) := by
  show StableHlo.after hostOps0 (fun b => m (c, b)) (Proc.devRef .tc main_v19) = _
  after_results
  rfl

/-- The fourth window's array, as the region finds it. -/
theorem V_wx (c : Dev nD) :
    (V m c main_v21 : S512x1024.Idx → Elt F .bf16) = wx (m ((c : Thread nD τ).loc main_arg2)) (m ((c : Thread nD τ).loc main_arg3)) := by
  show StableHlo.after hostOps0 (fun b => m (c, b)) (Proc.devRef .tc main_v21) = _
  after_results
  rfl

/-! ## Broadcasts read at an index -/

section Bcast
variable {α : Type}

theorem bc_row (y : S1x576.Idx → α) (r : Fin 512) (d : Fin 576) :
    broadcastInDim S512x576 ![0, 1] bcast_S1x576_S512x576_0_1 y (ix2 r d) = y (ix2 (0 : Fin 1) d) :=
  broadcastInDim_apply _ bcast_S1x576_S512x576_0_1 y (ix2 r d) (ix2 (0 : Fin 1) d) (fun a => match a with
    | ⟨0, _⟩ => by show 0 = if (1 : Nat) = 1 then 0 else r.val; rw [if_pos rfl]
    | ⟨1, _⟩ => by show d.val = if (576 : Nat) = 1 then 0 else d.val; rw [if_neg (by decide)])

theorem bc_col (y : S512x1.Idx → α) (r : Fin 512) (d : Fin 576) :
    broadcastInDim S512x576 ![0, 1] bcast_S512x1_S512x576_0_1 y (ix2 r d) = y (ix2 r (0 : Fin 1)) :=
  broadcastInDim_apply _ bcast_S512x1_S512x576_0_1 y (ix2 r d) (ix2 r (0 : Fin 1)) (fun a => match a with
    | ⟨0, _⟩ => by show r.val = if (512 : Nat) = 1 then 0 else r.val; rw [if_neg (by decide)]
    | ⟨1, _⟩ => by show 0 = if (1 : Nat) = 1 then 0 else d.val; rw [if_pos rfl])

theorem bc_lane (y : S576.Idx → α) (d : Fin 576) :
    broadcastInDim S1x576 ![1] bcast_S576_S1x576_1 y (ix2 (0 : Fin 1) d) = y (ix1 d) :=
  broadcastInDim_apply _ bcast_S576_S1x576_1 y (ix2 (0 : Fin 1) d) (ix1 d) (fun a => match a with
    | ⟨0, _⟩ => by show d.val = if (576 : Nat) = 1 then 0 else d.val; rw [if_neg (by decide)])

theorem bc_sub (y : S512.Idx → α) (r : Fin 512) :
    broadcastInDim S512x1 ![0] bcast_S512_S512x1_0 y (ix2 r (0 : Fin 1)) = y (ix1 r) :=
  broadcastInDim_apply _ bcast_S512_S512x1_0 y (ix2 r (0 : Fin 1)) (ix1 r) (fun a => match a with
    | ⟨0, _⟩ => by show r.val = if (512 : Nat) = 1 then 0 else r.val; rw [if_neg (by decide)])

theorem bc_scalar (y : S_.Idx → α) (r : Fin 512) :
    broadcastInDim S512x1 ![] bcast_S_S512x1 y (ix2 r (0 : Fin 1)) = y ix0 :=
  broadcastInDim_apply _ bcast_S_S512x1 y (ix2 r (0 : Fin 1)) ix0 (fun a => a.elim0)

end Bcast

/-! ## The integer operations at an index -/

section Pointwise
variable {s : Shape}

theorem uitofp_at (x : IVec s 1) (i : s.Idx) : (uitofp .f32 x : FVec F s .f32) i = FloatOps.uitofp .f32 (x i) := rfl
theorem cmpi_at (p : CmpIPredicate) (a b : IVec s 32) (i : s.Idx) : cmpi p a b i = IntOp.cmpi p (a i) (b i) := rfl
theorem addi_at (a b : IVec s 32) (i : s.Idx) : addi a b i = IntOp.addi (a i) (b i) := rfl

end Pointwise

/-! ## The two masks agree -/

/-- The kernel's mask at `[r, d]`: the word comparison `d < 64 + r`, as a float. -/
theorem mask_apply (r : Fin 512) (d : Fin 576) :
    mask (F := F) (ix2 r d)
      = FloatOps.uitofp .f32 (IntOp.cmpi .slt (BitVec.ofNat 32 d.val) (IntOp.addi (64#32) (BitVec.ofNat 32 r.val))) := by
  unfold mask
  rw [uitofp_at, cmpi_at, bc_row, bc_lane, bc_col, addi_at, bc_scalar, bc_sub]
  rfl

/-- The reference's mask at `[r, d]` is the same word comparison. -/
theorem refMask_apply (r : Fin 512) (d : Fin 576) :
    Cert.ReferenceIdeal.Read.val_main_v10 (F := F) (ix2 r d)
      = FloatOps.uitofp .f32 (IntOp.cmpi .slt (BitVec.ofNat 32 d.val) (IntOp.addi (64#32) (BitVec.ofNat 32 r.val))) := by
  rw [Cert.ReferenceIdeal.Read.val_main_v10_apply, Cert.ReferenceIdeal.Read.val_main_v9_apply,
    Cert.ReferenceIdeal.Read.val_main_v7_apply, Cert.ReferenceIdeal.Read.val_main_v2_apply,
    Cert.ReferenceIdeal.Read.val_main_v1_apply, Cert.ReferenceIdeal.Read.val_main_v8_apply,
    Cert.ReferenceIdeal.Read.val_main_v6_apply, Cert.ReferenceIdeal.Read.val_main_v5_apply,
    Cert.ReferenceIdeal.Read.val_main_v4_apply, Cert.ReferenceIdeal.Read.val_main_c_apply,
    Cert.ReferenceIdeal.Read.val_main_v3_apply]

/-- The two masks are one array. -/
theorem mask_eq : (mask (F := F) : S512x576.Idx → Elt F .f32) = Cert.ReferenceIdeal.Read.val_main_v10 (F := F) := by
  funext i
  obtain ⟨r, d, rfl⟩ : ∃ (r : Fin 512) (d : Fin 576), i = ix2 r d := ⟨i 0, i 1, eq_ix2 i⟩
  rw [mask_apply, refMask_apply]

/-- So the kernel's masked, transposed parameters are the reference's. -/
theorem wT_eq (P : FVec F S512x576 .f32) :
    (wT P : S576x512.Idx → Elt F .f32) = Cert.ReferenceIdeal.Read.val_main_v12 (F := F) P := by
  unfold wT Cert.ReferenceIdeal.Read.val_main_v12 Cert.ReferenceIdeal.Read.val_main_v11
  rw [mask_eq]

/-! ## The joined arrays read at an index (over the extended reals) -/

theorem wc_lft (PA PB : FVec Ideal S512x576 .f32) (k : Fin 64) (o : Fin 512) :
    wc (F := Ideal) PA PB (ix2 k (Cert.Flow.lft o)) = wT (F := Ideal) PA (ix2 (Cert.Flow.lo k) o) := by
  unfold wc
  rw [truncf_apply]
  refine (concatenate_pair_apply_left (t := S64x1024) (s₁ := S64x512) (s₂ := S64x512) (1 : Fin 2) _ _ concatenates_S64x512_S64x512_S64x1024_d1 (ix2 k (Cert.Flow.lft o)) rfl (ix2 k o)
    (fun b => match b with | ⟨0, _⟩ => rfl | ⟨1, _⟩ => rfl)).trans ?_
  exact extractStridedSlice_apply _ _ slices_S576x512_S64x512_0_0 (ix2 k o) (ix2 (Cert.Flow.lo k) o) (fun a => match a with
    | ⟨0, _⟩ => by show k.val = 0 + k.val; omega
    | ⟨1, _⟩ => by show o.val = 0 + o.val; omega)

theorem wc_rgt (PA PB : FVec Ideal S512x576 .f32) (k : Fin 64) (o : Fin 512) :
    wc (F := Ideal) PA PB (ix2 k (Cert.Flow.rgt o)) = wT (F := Ideal) PB (ix2 (Cert.Flow.lo k) o) := by
  unfold wc
  rw [truncf_apply]
  refine (concatenate_pair_apply_right (t := S64x1024) (s₁ := S64x512) (s₂ := S64x512) (1 : Fin 2) _ _ concatenates_S64x512_S64x512_S64x1024_d1 (ix2 k (Cert.Flow.rgt o)) rfl rfl (ix2 k o)
    (fun b => match b with | ⟨0, _⟩ => fun _ => rfl | ⟨1, _⟩ => fun h => absurd rfl h)
    (by show o.val + 512 = 512 + o.val; omega)).trans ?_
  exact extractStridedSlice_apply _ _ slices_S576x512_S64x512_0_0 (ix2 k o) (ix2 (Cert.Flow.lo k) o) (fun a => match a with
    | ⟨0, _⟩ => by show k.val = 0 + k.val; omega
    | ⟨1, _⟩ => by show o.val = 0 + o.val; omega)

theorem wx_lft (PA PB : FVec Ideal S512x576 .f32) (k : Fin 512) (o : Fin 512) :
    wx (F := Ideal) PA PB (ix2 k (Cert.Flow.lft o)) = wT (F := Ideal) PA (ix2 (Cert.Flow.hi k) o) := by
  unfold wx
  rw [truncf_apply]
  refine (concatenate_pair_apply_left (t := S512x1024) (s₁ := S512x512) (s₂ := S512x512) (1 : Fin 2) _ _ concatenates_S512x512_S512x512_S512x1024_d1 (ix2 k (Cert.Flow.lft o)) rfl (ix2 k o)
    (fun b => match b with | ⟨0, _⟩ => rfl | ⟨1, _⟩ => rfl)).trans ?_
  exact extractStridedSlice_apply _ _ slices_S576x512_S512x512_64_0 (ix2 k o) (ix2 (Cert.Flow.hi k) o) (fun a => match a with
    | ⟨0, _⟩ => by show 64 + k.val = 64 + k.val; rfl
    | ⟨1, _⟩ => by show o.val = 0 + o.val; omega)

theorem wx_rgt (PA PB : FVec Ideal S512x576 .f32) (k : Fin 512) (o : Fin 512) :
    wx (F := Ideal) PA PB (ix2 k (Cert.Flow.rgt o)) = wT (F := Ideal) PB (ix2 (Cert.Flow.hi k) o) := by
  unfold wx
  rw [truncf_apply]
  refine (concatenate_pair_apply_right (t := S512x1024) (s₁ := S512x512) (s₂ := S512x512) (1 : Fin 2) _ _ concatenates_S512x512_S512x512_S512x1024_d1 (ix2 k (Cert.Flow.rgt o)) rfl rfl (ix2 k o)
    (fun b => match b with | ⟨0, _⟩ => fun _ => rfl | ⟨1, _⟩ => fun h => absurd rfl h)
    (by show o.val + 512 = 512 + o.val; omega)).trans ?_
  exact extractStridedSlice_apply _ _ slices_S576x512_S512x512_64_0 (ix2 k o) (ix2 (Cert.Flow.hi k) o) (fun a => match a with
    | ⟨0, _⟩ => by show 64 + k.val = 64 + k.val; rfl
    | ⟨1, _⟩ => by show o.val = 0 + o.val; omega)

end Cert.Flow.Weights

end
-- ==== Proof.BlockFlow.lean ====
/-
  The kernel body's two stored values at an index, over the extended reals: for row `p` of a block,
      stored z[p, o]      = x0[p, o] · exp (blockLin … p o) + blockLin … p (512 + o),
      stored logdet[p, 0] = ∑ o < 512, blockLin … p o,
  where `blockLin` (Spec.lean) is the sum of the two matrix products: the block of `c` against the [64, 1024] joined
  weights plus the block of `X` against the [512, 1024] joined weights.
-/
import proofs.«144056_j62895501083197_2_alg».proof.Proof.Gen.KernelIdeal.Skeleton
import proofs.«144056_j62895501083197_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Flow.Block

open Cert.KernelIdeal Cert.KernelIdeal.Gen Idealize.ShloMosaic Idealize.ShloMosaic.TcCoe
open Idealize.ShloMosaic.ValueIdx

/-! ## The two matrix products at an index

Each product contracts one axis: the left operand's columns against the right operand's rows. The contraction's index
set is identified with `Fin 64` (resp. `Fin 512`), and the operand indices at output index `(p, n)` and contraction
coordinate `k` are `(p, k)` and `(k, n)`. -/

private theorem lhsA_0 (i : S2048x1024.Idx) (q : dot_S2048x64_S64x1024_S2048x1024_1_0_0_1_n_n.contr.Idx) :
    (dot_S2048x64_S64x1024_S2048x1024_1_0_0_1_n_n.lhsIdx i q 0).val = (i 0).val := by
  unfold DotDims.lhsIdx
  rw [dif_neg (show ¬(0 : Fin S2048x64.rank) ∈ dot_S2048x64_S64x1024_S2048x1024_1_0_0_1_n_n.lhsBatch by decide), dif_pos (show (0 : Fin S2048x64.rank) ∈ dot_S2048x64_S64x1024_S2048x1024_1_0_0_1_n_n.lhsNonContracting by decide)]
  rfl
private theorem lhsA_1 (i : S2048x1024.Idx) (q : dot_S2048x64_S64x1024_S2048x1024_1_0_0_1_n_n.contr.Idx) :
    (dot_S2048x64_S64x1024_S2048x1024_1_0_0_1_n_n.lhsIdx i q 1).val = (q ⟨0, by decide⟩).val :=
  dot_S2048x64_S64x1024_S2048x1024_1_0_0_1_n_n.lhsIdx_val_of_single rfl i q
private theorem rhsA_0 (i : S2048x1024.Idx) (q : dot_S2048x64_S64x1024_S2048x1024_1_0_0_1_n_n.contr.Idx) :
    (dot_S2048x64_S64x1024_S2048x1024_1_0_0_1_n_n.rhsIdx i q 0).val = (q ⟨0, by decide⟩).val :=
  dot_S2048x64_S64x1024_S2048x1024_1_0_0_1_n_n.rhsIdx_val_of_single rfl i q
private theorem rhsA_1 (i : S2048x1024.Idx) (q : dot_S2048x64_S64x1024_S2048x1024_1_0_0_1_n_n.contr.Idx) :
    (dot_S2048x64_S64x1024_S2048x1024_1_0_0_1_n_n.rhsIdx i q 1).val = (i 1).val := by
  unfold DotDims.rhsIdx
  rw [dif_neg (show ¬(1 : Fin S64x1024.rank) ∈ dot_S2048x64_S64x1024_S2048x1024_1_0_0_1_n_n.rhsBatch by decide), dif_pos (show (1 : Fin S64x1024.rank) ∈ dot_S2048x64_S64x1024_S2048x1024_1_0_0_1_n_n.rhsNonContracting by decide)]
  rfl

private theorem lhsB_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
private theorem lhsB_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
private theorem rhsB_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
private theorem rhsB_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The [2048, 64] × [64, 1024] product into the zero accumulator, at `(p, n)`: `∑ k < 64, l[p, k] · r[k, n]`. -/
private theorem mmA_apply (l : FVec Ideal S2048x64 .bf16) (r : FVec Ideal S64x1024 .bf16) (p : Fin 2048) (n : Fin 1024) :
    matmul dot_S2048x64_S64x1024_S2048x1024_1_0_0_1_n_n none l r (constant S2048x1024 .f32 0x00000000#32) (ix2 p n)
      = ∑ k : Fin 64, l (ix2 p k) * r (ix2 k n) := by
  refine (Ideal.matmul_constant_zero_apply dot_S2048x64_S64x1024_S2048x1024_1_0_0_1_n_n none l r (ix2 p n)).trans ?_
  rw [← Equiv.sum_comp (ValueIdx.contrEquiv1 dot_S2048x64_S64x1024_S2048x1024_1_0_0_1_n_n 64 rfl rfl).symm]
  refine Finset.sum_congr rfl fun k _ => ?_
  have hk := ValueIdx.contrEquiv1_symm_val dot_S2048x64_S64x1024_S2048x1024_1_0_0_1_n_n 64 rfl rfl k
  have el : dot_S2048x64_S64x1024_S2048x1024_1_0_0_1_n_n.lhsIdx (ix2 p n) ((ValueIdx.contrEquiv1 dot_S2048x64_S64x1024_S2048x1024_1_0_0_1_n_n 64 rfl rfl).symm k) = ix2 p k := funext fun a => Fin.ext (by
    match a with
    | ⟨0, _⟩ => exact lhsA_0 _ _
    | ⟨1, _⟩ => exact (lhsA_1 _ _).trans hk)
  have er : dot_S2048x64_S64x1024_S2048x1024_1_0_0_1_n_n.rhsIdx (ix2 p n) ((ValueIdx.contrEquiv1 dot_S2048x64_S64x1024_S2048x1024_1_0_0_1_n_n 64 rfl rfl).symm k) = ix2 k n := funext fun a => Fin.ext (by
    match a with
    | ⟨0, _⟩ => exact (rhsA_0 _ _).trans hk
    | ⟨1, _⟩ => exact rhsA_1 _ _)
  rw [el, er]

/-- The [2048, 512] × [512, 1024] product into the zero accumulator, at `(p, n)`: `∑ k < 512, l[p, k] · r[k, n]`. -/
private theorem mmB_apply (l : FVec Ideal S2048x512 .bf16) (r : FVec Ideal S512x1024 .bf16) (p : Fin 2048) (n : Fin 1024) :
    matmul dot_S2048x512_S512x1024_S2048x1024_1_0_0_1_n_n none l r (constant S2048x1024 .f32 0x00000000#32) (ix2 p n)
      = ∑ k : Fin 512, l (ix2 p k) * r (ix2 k n) := by
  refine (Ideal.matmul_constant_zero_apply dot_S2048x512_S512x1024_S2048x1024_1_0_0_1_n_n none l r (ix2 p n)).trans ?_
  rw [← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 p n) ((ValueIdx.contrEquiv1 dot_S2048x512_S512x1024_S2048x1024_1_0_0_1_n_n 512 rfl rfl).symm k) = ix2 p k := funext fun a => Fin.ext (by
    match a with
    | ⟨0, _⟩ => exact lhsB_0 _ _
    | ⟨1, _⟩ => exact (lhsB_1 _ _).trans hk)
  have er : dot_S2048x512_S512x1024_S2048x1024_1_0_0_1_n_n.rhsIdx (ix2 p n) ((ValueIdx.contrEquiv1 dot_S2048x512_S512x1024_S2048x1024_1_0_0_1_n_n 512 rfl rfl).symm k) = ix2 k n := funext fun a => Fin.ext (by
    match a with
    | ⟨0, _⟩ => exact (rhsB_0 _ _).trans hk
    | ⟨1, _⟩ => exact rhsB_1 _ _)
  rw [el, er]

/-! ## The layout operations at an index, for any operand -/

/-- The left 512 columns of a [2048, 1024] array, at `(p, o)`: the array at `(p, o)`. -/
private theorem slice_left_apply (y : FVec Ideal S2048x1024 .f32) (p : Fin 2048) (o : Fin 512) :
    extractStridedSlice S2048x512 ![0, 0] y slices_S2048x1024_o0_0_S2048x512 (ix2 p o) = y (ix2 p (Cert.Flow.lft o)) :=
  extractStridedSlice_apply ![0, 0] y slices_S2048x1024_o0_0_S2048x512 (ix2 p o) (ix2 p (Cert.Flow.lft o)) (fun a => by
    match a with
    | ⟨0, _⟩ => show p.val = 0 + p.val; omega
    | ⟨1, _⟩ => show o.val = 0 + o.val; omega)

/-- The right 512 columns of a [2048, 1024] array, at `(p, o)`: the array at `(p, 512 + o)`. -/
private theorem slice_right_apply (y : FVec Ideal S2048x1024 .f32) (p : Fin 2048) (o : Fin 512) :
    extractStridedSlice S2048x512 ![0, 512] y slices_S2048x1024_o0_512_S2048x512 (ix2 p o) = y (ix2 p (Cert.Flow.rgt o)) :=
  extractStridedSlice_apply ![0, 512] y slices_S2048x1024_o0_512_S2048x512 (ix2 p o) (ix2 p (Cert.Flow.rgt o)) (fun a => by
    match a with
    | ⟨0, _⟩ => show p.val = 0 + p.val; omega
    | ⟨1, _⟩ => show 512 + o.val = 512 + o.val; rfl)

/-- A [2048] array viewed as a [2048, 1] column, at `(p, z)`: the array at `p`, whatever the unit coordinate. -/
private theorem column_apply (v : FVec Ideal S2048 .f32) (p : Fin 2048) (z : Fin 1) :
    shapeCast S2048x1 v shapeCasts_S2048_S2048x1 (ix2 p z) = v (ix1 p) :=
  shapeCast_apply v shapeCasts_S2048_S2048x1 (ix2 p z) (ix1 p) (by
    have hz : z.val = 0 := by omega
    rw [Shape.rowMajor_val_one, Shape.rowMajor_val_two]
    show p.val = p.val * 1 + z.val
    omega)

/-- The sum along the rows of a [2048, 512] array, at `p`: `∑ k < 512, y[p, k]`. -/
private theorem laneSum_apply (y : FVec Ideal S2048x512 .f32) (p : Fin 2048) :
    multiReduction .add [1] S2048 y 0x00000000#32 reduces_S2048x512_S2048 (.inl rfl) rfl (ix1 p)
      = ∑ k : Fin 512, y (ix2 p k) := by
  refine (Ideal.multiReduction_add_single y 0x00000000#32 reduces_S2048x512_S2048 (.inl rfl) rfl (ix1 p)).trans ?_
  show ∑ k : Fin 512, y (reduces_S2048x512_S2048.lift (ix1 p) k) = _
  refine Finset.sum_congr rfl fun k _ => ?_
  refine congrArg y (funext fun a => Fin.ext ?_)
  match a with
  | ⟨0, _⟩ => rfl
  | ⟨1, _⟩ => rfl

/-! ## The body's values at an index -/

/-- The sum of the two products, at `(p, n)`: the format changes are the identity on extended reals and the two
    casts are to the same shape, so it is `blockLin` of the four loaded blocks. -/
private theorem pay1_apply (x0 : Vec Ideal S2048x512 .f32) (x1 : Vec Ideal S2048x64 .f32) (x2 : Vec Ideal S64x1024 .bf16)
    (x3 : Vec Ideal S512x1024 .bf16) (p : Fin 2048) (n : Fin 1024) :
    k0_pay1 (F := Ideal) x0 x1 x2 x3 (ix2 p n) = Cert.Flow.blockLin x0 x1 x2 x3 p n := by
  unfold k0_pay1 Cert.Flow.blockLin
  refine (addf_apply _ _ _).trans ?_
  refine congrArg₂ (· + ·) ?_ ?_
  · refine (mmA_apply _ _ p n).trans ?_
    refine Finset.sum_congr rfl fun k _ => ?_
    rw [shapeCast_self]
    rfl
  · refine (mmB_apply _ _ p n).trans ?_
    refine Finset.sum_congr rfl fun k _ => ?_
    rw [shapeCast_self]
    rfl

/-- The left 512 columns of the sum. -/
private theorem pay2_apply (x0 : Vec Ideal S2048x512 .f32) (x1 : Vec Ideal S2048x64 .f32) (x2 : Vec Ideal S64x1024 .bf16)
    (x3 : Vec Ideal S512x1024 .bf16) (p : Fin 2048) (o : Fin 512) :
    k0_pay2 (F := Ideal) x0 x1 x2 x3 (ix2 p o) = Cert.Flow.blockLin x0 x1 x2 x3 p (Cert.Flow.lft o) := by
  unfold k0_pay2
  generalize hy : k0_pay1 (F := Ideal) x0 x1 x2 x3 = y
  refine (slice_left_apply y p o).trans ?_
  rw [← hy]
  exact pay1_apply x0 x1 x2 x3 p _

/-- What the body stores into the `z` block, at row `p`, column `o`. -/
theorem pay3_apply (x0 : Vec Ideal S2048x512 .f32) (x1 : Vec Ideal S2048x64 .f32) (x2 : Vec Ideal S64x1024 .bf16)
    (x3 : Vec Ideal S512x1024 .bf16) (p : Fin 2048) (o : Fin 512) :
    k0_pay3 (F := Ideal) x0 x1 x2 x3 (ix2 p o)
      = x0 (ix2 p o) * Ideal.exp (Cert.Flow.blockLin x0 x1 x2 x3 p (Cert.Flow.lft o))
        + Cert.Flow.blockLin x0 x1 x2 x3 p (Cert.Flow.rgt o) := by
  have h2 := pay2_apply x0 x1 x2 x3 p o
  have h1 := pay1_apply x0 x1 x2 x3 p (Cert.Flow.rgt o)
  unfold k0_pay3
  generalize k0_pay2 (F := Ideal) x0 x1 x2 x3 = w at h2 ⊢
  generalize k0_pay1 (F := Ideal) x0 x1 x2 x3 = y at h1 ⊢
  refine (addf_apply _ _ _).trans ?_
  refine congrArg₂ (· + ·) ?_ ((slice_right_apply y p o).trans h1)
  refine (mulf_apply _ _ _).trans ?_
  refine congrArg (x0 (ix2 p o) * ·) ?_
  show Ideal.exp (w (ix2 p o)) = _
  rw [h2]

/-- What the body stores into the `logdet` block, at row `p`. -/
theorem pay4_apply (x0 : Vec Ideal S2048x512 .f32) (x1 : Vec Ideal S2048x64 .f32) (x2 : Vec Ideal S64x1024 .bf16)
    (x3 : Vec Ideal S512x1024 .bf16) (p : Fin 2048) (z : Fin 1) :
    k0_pay4 (F := Ideal) x0 x1 x2 x3 (ix2 p z)
      = ∑ o : Fin 512, Cert.Flow.blockLin x0 x1 x2 x3 p (Cert.Flow.lft o) := by
  have h2 : ∀ o : Fin 512, k0_pay2 (F := Ideal) x0 x1 x2 x3 (ix2 p o)
      = Cert.Flow.blockLin x0 x1 x2 x3 p (Cert.Flow.lft o) := pay2_apply x0 x1 x2 x3 p
  unfold k0_pay4
  generalize k0_pay2 (F := Ideal) x0 x1 x2 x3 = w at h2 ⊢
  refine (column_apply _ p z).trans ?_
  refine (laneSum_apply w p).trans ?_
  exact Finset.sum_congr rfl fun o _ => h2 o

end Cert.Flow.Block

end
-- ==== Proof.Blocks.lean ====
/-
  From blocks to arrays.  The grid has 64 points; point `t` is handed rows `2048·t … 2048·t + 2047` of `X` and of
  `c` and the two joined weight arrays whole, and writes back rows `2048·t …` of both outputs.  So row `p` of what
  point `t` stores is row `2048·t + p` of one whole-array function of the four arrays the region is launched with
  (`kZ`, `kL` of Spec.lean), and since every row `i` lies in the block of point `i / 2048`, each output array ends
  holding that function.
-/
import proofs.«144056_j62895501083197_2_alg».proof.Proof.Gen.KernelIdeal.Frame
import proofs.«144056_j62895501083197_2_alg».proof.Proof.Spec
import proofs.«144056_j62895501083197_2_alg».proof.Proof.BlockFlow
import Idealize.ShloMosaic.Lib.Pipeline.Value
import Idealize.ShloMosaic.Lib.ValueIdx

set_option maxRecDepth 16384

noncomputable section

open scoped BigOperators

namespace Cert.Flow.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem hz : (![0, 0] : Fin 2 → Nat) = fun _ => 0 := funext fun a => by fin_cases a <;> rfl

/-- The block index of every window at point `t`: the row blocks move with `t`, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 64 := by
  exact lt_of_lt_of_eq t.isLt (show cfg0.N = 64 from N_0)

/-- Row `p` of point `t`'s block is row `2048·t + p` of the array. -/
def row (t : Fin cfg0.N) (p : Fin 2048) : Fin 131072 :=
  ⟨t.val * 2048 + p.val, by have := t_lt t; have := p.isLt; omega⟩

/-! ## The input blocks as rows of the arrays -/

theorem iblk0_apply (c : Dev nD) (t : Fin cfg0.N) (p : Fin 2048) (k : Fin 512) :
    (iblk m c 0 t : Vec Ideal S2048x512 .f32) (ix2 p k) = (V m c main_arg0 : S131072x512.Idx → EReal) (ix2 (row t p) k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 2048 + 1 * p.val = t.val * 2048 + p.val; rw [e0]; omega
  | ⟨1, _⟩ => show win0_0.index t (1 : Fin 2) * 512 + 1 * k.val = k.val; rw [e1]; omega

theorem iblk1_apply (c : Dev nD) (t : Fin cfg0.N) (p : Fin 2048) (k : Fin 64) :
    (iblk m c 1 t : Vec Ideal S2048x64 .f32) (ix2 p k) = (V m c main_arg1 : S131072x64.Idx → EReal) (ix2 (row t p) k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 2048 + 1 * p.val = t.val * 2048 + p.val; rw [e0]; omega
  | ⟨1, _⟩ => show win0_1.index t (1 : Fin 2) * 64 + 1 * k.val = k.val; rw [e1]; omega

theorem iblk2_apply (c : Dev nD) (t : Fin cfg0.N) (k : Fin 64) (n : Fin 1024) :
    (iblk m c 2 t : Vec Ideal S64x1024 .bf16) (ix2 k n) = (V m c main_v19 : S64x1024.Idx → EReal) (ix2 k n) := by
  obtain ⟨-, -, -, -, e0, e1, -⟩ := idx_facts t
  unfold iblk
  rw [View.read_apply]
  show V m c main_v19 _ = V m c main_v19 _
  congr 1
  funext a
  apply Fin.ext
  match a with
  | ⟨0, _⟩ => show win0_2.index t (0 : Fin 2) * 64 + 1 * k.val = k.val; rw [e0]; omega
  | ⟨1, _⟩ => show win0_2.index t (1 : Fin 2) * 1024 + 1 * n.val = n.val; rw [e1]; omega

theorem iblk3_apply (c : Dev nD) (t : Fin cfg0.N) (k : Fin 512) (n : Fin 1024) :
    (iblk m c 3 t : Vec Ideal S512x1024 .bf16) (ix2 k n) = (V m c main_v21 : S512x1024.Idx → EReal) (ix2 k n) := by
  obtain ⟨-, -, -, -, -, -, e0, e1, -⟩ := idx_facts t
  unfold iblk
  rw [View.read_apply]
  show V m c main_v21 _ = V m c main_v21 _
  congr 1
  funext a
  apply Fin.ext
  match a with
  | ⟨0, _⟩ => show win0_3.index t (0 : Fin 2) * 512 + 1 * k.val = k.val; rw [e0]; omega
  | ⟨1, _⟩ => show win0_3.index t (1 : Fin 2) * 1024 + 1 * n.val = n.val; rw [e1]; omega

/-- The blockwise contraction at row `p` of point `t` is the whole-array one at row `2048·t + p`. -/
theorem blockLin_eq (c : Dev nD) (t : Fin cfg0.N) (p : Fin 2048) (n : Fin 1024) :
    Cert.Flow.blockLin (iblk m c 0 t : Vec Ideal S2048x512 .f32) (iblk m c 1 t : Vec Ideal S2048x64 .f32)
        (iblk m c 2 t : Vec Ideal S64x1024 .bf16) (iblk m c 3 t : Vec Ideal S512x1024 .bf16) p n
      = Cert.Flow.klin (V m c main_arg0) (V m c main_arg1) (V m c main_v19) (V m c main_v21) (row t p) n := by
  unfold Cert.Flow.blockLin Cert.Flow.klin
  refine congrArg₂ (· + ·) (Finset.sum_congr rfl fun k _ => ?_) (Finset.sum_congr rfl fun k _ => ?_)
  · exact congrArg₂ (· * ·) (iblk1_apply m c t p k) (iblk2_apply m c t k n)
  · exact congrArg₂ (· * ·) (iblk0_apply m c t p k) (iblk3_apply m c t k n)

/-! ## The first output -/

/-- What point `t` writes back to the first output is block `t` of `kZ`. -/
theorem flushed4_eq (c : Dev nD) (t : Fin cfg0.N) :
    (dats m 0 c).flushed 4 t = ((cfg0.win 4).blk t).view.read (Elt Ideal)
      (Cert.Flow.kZ (V m c main_arg0) (V m c main_arg1) (V m c main_v19) (V m c main_v21)) := by
  show (cfg0.win 4).cut (grid0.coords t) ((dats m 0 c).after 4 t) = _
  rw [after0_4]
  unfold out0_4
  rw [View.canon_unit_zero hz]
  simp only [View.ld_unit_zero (S := S2048x512) hz, View.ld_unit_zero (S := S2048x64) hz,
    View.ld_unit_zero (S := S64x1024) hz, View.ld_unit_zero (S := S512x1024) hz]
  obtain ⟨-, -, -, -, -, -, -, -, e0, e1, -⟩ := idx_facts t
  funext (j : S2048x512.Idx)
  obtain ⟨p, o, rfl⟩ : ∃ (p : Fin 2048) (o : Fin 512), j = ix2 p o := ⟨j 0, j 1, eq_ix2 j⟩
  show k0_pay3 (F := Ideal) (iblk m c 0 t) (iblk m c 1 t) (iblk m c 2 t) (iblk m c 3 t) (ix2 p o)
    = Cert.Flow.kZ (V m c main_arg0) (V m c main_arg1) (V m c main_v19) (V m c main_v21) (((cfg0.win 4).blk t).view.emb (ix2 p o))
  have hemb : ((cfg0.win 4).blk t).view.emb (ix2 p o) = (ix2 (row t p) o : S131072x512.Idx) := by
    funext a
    apply Fin.ext
    match a with
    | ⟨0, _⟩ => show win0_4.index t (0 : Fin 2) * 2048 + 1 * p.val = t.val * 2048 + p.val; rw [e0]; omega
    | ⟨1, _⟩ => show win0_4.index t (1 : Fin 2) * 512 + 1 * o.val = o.val; rw [e1]; omega
  rw [hemb]
  refine (Cert.Flow.Block.pay3_apply (iblk m c 0 t) (iblk m c 1 t) (iblk m c 2 t) (iblk m c 3 t) p o).trans ?_
  rw [blockLin_eq m c t p (Cert.Flow.lft o), blockLin_eq m c t p (Cert.Flow.rgt o), iblk0_apply m c t p o]
  rfl

theorem mem_blk4 (t : Fin cfg0.N) (i : S131072x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v22_0).slice (win0_4.rect t)).set ↔ _
  rw [View.set_slice_whole, Rect.mem_set_unit]
  exact Iff.rfl

/-- Every index of the first output lies in the block of the point its row names. -/
theorem cover4 (i : S131072x512.Idx) : ∃ t : Fin cfg0.N, (cfg0.win 4).flush t = true ∧ i ∈ ((cfg0.win 4).blk t).view.set := by
  have hi0 : (i 0).val < 131072 := (i 0).isLt
  have hi1 : (i 1).val < 512 := (i 1).isLt
  have ht : (i 0).val / 2048 < cfg0.N := by rw [show cfg0.N = 64 from N_0]; omega
  obtain ⟨-, -, -, -, -, -, -, -, e0, e1, -⟩ := idx_facts ⟨(i 0).val / 2048, ht⟩
  refine ⟨⟨(i 0).val / 2048, ht⟩, flush0_4 _, ?_⟩
  rw [mem_blk4]
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_4.index ⟨(i 0).val / 2048, ht⟩ (1 : Fin 2) * 512 ≤ (i 1).val ∧ (i 1).val < win0_4.index ⟨(i 0).val / 2048, ht⟩ (1 : Fin 2) * 512 + 512
    rw [e1]
    omega

/-- The first output array after the run. -/
theorem final4 (c : Dev nD) :
    (dats m 0 c).arrAt 4 cfg0.N = Cert.Flow.kZ (V m c main_arg0) (V m c main_arg1) (V m c main_v19) (V m c main_v21) :=
  (dats m 0 c).arrAt_eq_of_cover 4 _ (fun t _ => flushed4_eq m c t) cover4

/-! ## The second output -/

/-- What point `t` writes back to the second output is block `t` of `kL`. -/
theorem flushed5_eq (c : Dev nD) (t : Fin cfg0.N) :
    (dats m 0 c).flushed 5 t = ((cfg0.win 5).blk t).view.read (Elt Ideal)
      (Cert.Flow.kL (V m c main_arg0) (V m c main_arg1) (V m c main_v19) (V m c main_v21)) := by
  show (cfg0.win 5).cut (grid0.coords t) ((dats m 0 c).after 5 t) = _
  rw [after0_5]
  unfold out0_5
  rw [View.canon_unit_zero hz]
  simp only [View.ld_unit_zero (S := S2048x512) hz, View.ld_unit_zero (S := S2048x64) hz,
    View.ld_unit_zero (S := S64x1024) hz, View.ld_unit_zero (S := S512x1024) hz]
  obtain ⟨-, -, -, -, -, -, -, -, -, -, e0, e1⟩ := idx_facts t
  funext (j : S2048x1.Idx)
  obtain ⟨p, z, rfl⟩ : ∃ (p : Fin 2048) (z : Fin 1), j = ix2 p z := ⟨j 0, j 1, eq_ix2 j⟩
  show k0_pay4 (F := Ideal) (iblk m c 0 t) (iblk m c 1 t) (iblk m c 2 t) (iblk m c 3 t) (ix2 p z)
    = Cert.Flow.kL (V m c main_arg0) (V m c main_arg1) (V m c main_v19) (V m c main_v21) (((cfg0.win 5).blk t).view.emb (ix2 p z))
  have hemb : ((cfg0.win 5).blk t).view.emb (ix2 p z) = (ix2 (row t p) z : S131072x1.Idx) := by
    funext a
    apply Fin.ext
    match a with
    | ⟨0, _⟩ => show win0_5.index t (0 : Fin 2) * 2048 + 1 * p.val = t.val * 2048 + p.val; rw [e0]; omega
    | ⟨1, _⟩ => show win0_5.index t (1 : Fin 2) * 1 + 1 * z.val = z.val; rw [e1]; omega
  rw [hemb]
  refine (Cert.Flow.Block.pay4_apply (iblk m c 0 t) (iblk m c 1 t) (iblk m c 2 t) (iblk m c 3 t) p z).trans ?_
  show _ = ∑ o : Fin 512, Cert.Flow.klin (V m c main_arg0) (V m c main_arg1) (V m c main_v19) (V m c main_v21) (row t p) (Cert.Flow.lft o)
  exact Finset.sum_congr rfl fun o _ => blockLin_eq m c t p (Cert.Flow.lft o)

theorem mem_blk5 (t : Fin cfg0.N) (i : S131072x1.Idx) :
    i ∈ ((cfg0.win 5).blk t).view.set ↔ ∀ a : Fin 2, win0_5.index t a * S2048x1.size a ≤ (i a).val ∧ (i a).val < win0_5.index t a * S2048x1.size a + S2048x1.size a := by
  show i ∈ ((View.whole main_v22_1).slice (win0_5.rect t)).set ↔ _
  rw [View.set_slice_whole, Rect.mem_set_unit]
  exact Iff.rfl

/-- Every index of the second output lies in the block of the point its row names. -/
theorem cover5 (i : S131072x1.Idx) : ∃ t : Fin cfg0.N, (cfg0.win 5).flush t = true ∧ i ∈ ((cfg0.win 5).blk t).view.set := by
  have hi0 : (i 0).val < 131072 := (i 0).isLt
  have hi1 : (i 1).val < 1 := (i 1).isLt
  have ht : (i 0).val / 2048 < cfg0.N := by rw [show cfg0.N = 64 from N_0]; omega
  obtain ⟨-, -, -, -, -, -, -, -, -, -, e0, e1⟩ := idx_facts ⟨(i 0).val / 2048, ht⟩
  refine ⟨⟨(i 0).val / 2048, ht⟩, flush0_5 _, ?_⟩
  rw [mem_blk5]
  intro a
  match a with
  | ⟨0, _⟩ =>
    show win0_5.index ⟨(i 0).val / 2048, ht⟩ (0 : Fin 2) * 2048 ≤ (i 0).val ∧ (i 0).val < win0_5.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_5.index ⟨(i 0).val / 2048, ht⟩ (1 : Fin 2) * 1 ≤ (i 1).val ∧ (i 1).val < win0_5.index ⟨(i 0).val / 2048, ht⟩ (1 : Fin 2) * 1 + 1
    rw [e1]
    omega

/-- The second output array after the run. -/
theorem final5 (c : Dev nD) :
    (dats m 0 c).arrAt 5 cfg0.N = Cert.Flow.kL (V m c main_arg0) (V m c main_arg1) (V m c main_v19) (V m c main_v21) :=
  (dats m 0 c).arrAt_eq_of_cover 5 _ (fun t _ => flushed5_eq m c t) cover5

end Cert.Flow.Blocks

end
-- ==== Proof.Tail.lean ====
/-
  After the region the program reshapes the second output, a column [131072, 1], to a vector [131072]:
  entry `b` of the vector is row `b` of the column.
-/
import proofs.«144056_j62895501083197_2_alg».proof.Proof.Gen.KernelIdeal.Frame
import Idealize.ShloMosaic.Lib.Pipeline.Value
import Idealize.ShloMosaic.Lib.ValueIdx
import Idealize.ShloMosaic.Lib.StableHlo.Run

noncomputable section

namespace Cert.Flow.Tail

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- A column [131072, 1] reshaped to a vector [131072]: entry `b` of the vector is row `b` of the column,
    the two having the same row-major position `b`. -/
private theorem column_as_vector (A G : S131072x1.Idx → EReal) (hA : A = G) :
    (fun i : S131072.Idx => shapeCast S131072 A shapeCasts_S131072x1_S131072 i)
      = fun i => G (ix2 (i 0) (0 : Fin 1)) := by
  subst hA
  funext i
  refine shapeCast_apply A shapeCasts_S131072x1_S131072 i (ix2 (i 0) (0 : Fin 1)) ?_
  rw [Shape.rowMajor_val_two, Shape.rowMajor_val_one]
  show (i 0).val * 1 + 0 = (i 0).val
  omega

/-- What the program's last line leaves in its result: the second output window's array after the run, whatever
    whole-array function `G` it is, read row by row. -/
theorem tail_logdet (c : Dev nD) (G : S131072x1.Idx → EReal) (hG : (dats m 0 c).arrAt 5 cfg0.N = G) :
    (Pipeline.afterTail₀ cfgs (dats m) 0 (V0 m) [hostOps1] c main_v23 : S131072.Idx → EReal)
      = fun i => G (ix2 (i 0) (0 : Fin 1)) := by
  unfold Pipeline.afterTail₀
  show StableHlo.after hostOps1 _ (Proc.devRef .tc main_v23) = _
  after_results
  exact column_as_vector _ G ((Pipeline.withArrays_arr spec0 launch0.win.arr_inj c _ _ 5).trans hG)

end Cert.Flow.Tail

end
-- ==== Proof.KernelRun.lean ====
/-
  The idealized kernel's run, read: both results as the affine autoregressive map of the argument arrays.

  The first result is output window 4's array after the run, `kZ` of the four arrays the region is launched with
  (Blocks.lean); the second is the reshape of output window 5's array, `kL` of them (Blocks.lean, Tail.lean).  The
  first two launched arrays are the arguments `X` and `c` untouched, the other two are the joined weight arrays
  whose halves are the masked, transposed parameters (Weights.lean), so the joined contraction is the split one
  (`klin_lft`, `klin_rgt` of Spec.lean) over the reference's own weight arrays.
-/
import proofs.«144056_j62895501083197_2_alg».proof.Proof.Gen.KernelIdeal.Frame
import proofs.«144056_j62895501083197_2_alg».proof.Proof.Gen.ReferenceIdeal.Read
import proofs.«144056_j62895501083197_2_alg».proof.Proof.Spec
import proofs.«144056_j62895501083197_2_alg».proof.Proof.Weights
import proofs.«144056_j62895501083197_2_alg».proof.Proof.Blocks
import proofs.«144056_j62895501083197_2_alg».proof.Proof.Tail
import Idealize.ShloMosaic.Lib.Pipeline.Value
import Idealize.ShloMosaic.Lib.ValueIdx

noncomputable section

open scoped BigOperators

namespace Cert.Flow.KernelRun

open Cert.KernelIdeal Cert.KernelIdeal.Gen Idealize.ShloMosaic Idealize.ShloMosaic.TcCoe Idealize.SL.Sem
open Idealize.ShloMosaic.ValueIdx

/-- Over the joined weight arrays of `PA` and `PB`, the first result is `z` over the reference's weight arrays. -/
theorem kZ_eq (X : FVec Ideal S131072x512 .f32) (c : FVec Ideal S131072x64 .f32) (PA PB : FVec Ideal S512x576 .f32) :
    Cert.Flow.kZ X c (Cert.Flow.Weights.wc (F := Ideal) PA PB) (Cert.Flow.Weights.wx (F := Ideal) PA PB)
      = Cert.Flow.flowZ X c (Cert.ReferenceIdeal.Read.val_main_v12 (F := Ideal) PA) (Cert.ReferenceIdeal.Read.val_main_v15 (F := Ideal) PB) := by
  have hA : (Cert.ReferenceIdeal.Read.val_main_v12 (F := Ideal) PA) = Cert.Flow.Weights.wT (F := Ideal) PA := (Cert.Flow.Weights.wT_eq PA).symm
  have hB : (Cert.ReferenceIdeal.Read.val_main_v15 (F := Ideal) PB) = Cert.Flow.Weights.wT (F := Ideal) PB := (Cert.Flow.Weights.wT_eq PB).symm
  rw [hA, hB]
  funext i
  obtain ⟨b, o, rfl⟩ : ∃ (b : Fin 131072) (o : Fin 512), i = ix2 b o := ⟨i 0, i 1, eq_ix2 i⟩
  rw [Cert.Flow.flowZ_ix2]
  unfold Cert.Flow.zAt
  show X (ix2 b o) * Ideal.exp (Cert.Flow.klin X c _ _ b (Cert.Flow.lft o)) + Cert.Flow.klin X c _ _ b (Cert.Flow.rgt o) = _
  rw [Cert.Flow.klin_lft X c _ _ (Cert.Flow.Weights.wT (F := Ideal) PA) (Cert.Flow.Weights.wc_lft PA PB) (Cert.Flow.Weights.wx_lft PA PB) b o,
    Cert.Flow.klin_rgt X c _ _ (Cert.Flow.Weights.wT (F := Ideal) PB) (Cert.Flow.Weights.wc_rgt PA PB) (Cert.Flow.Weights.wx_rgt PA PB) b o]

/-- And the second, read row by row off the column, is `logdet`. -/
theorem kL_eq (X : FVec Ideal S131072x512 .f32) (c : FVec Ideal S131072x64 .f32) (PA PB : FVec Ideal S512x576 .f32) :
    (fun i : S131072.Idx => Cert.Flow.kL X c (Cert.Flow.Weights.wc (F := Ideal) PA PB) (Cert.Flow.Weights.wx (F := Ideal) PA PB) (ix2 (i 0) (0 : Fin 1)))
      = Cert.Flow.flowL X c (Cert.ReferenceIdeal.Read.val_main_v12 (F := Ideal) PA) := by
  have hA : (Cert.ReferenceIdeal.Read.val_main_v12 (F := Ideal) PA) = Cert.Flow.Weights.wT (F := Ideal) PA := (Cert.Flow.Weights.wT_eq PA).symm
  rw [hA]
  funext i
  obtain ⟨b, rfl⟩ : ∃ (b : Fin 131072), i = ix1 b := ⟨i 0, eq_ix1 i⟩
  rw [Cert.Flow.flowL_ix1]
  unfold Cert.Flow.lAt
  show ∑ o : Fin 512, Cert.Flow.klin X c _ _ b (Cert.Flow.lft o) = _
  exact Finset.sum_congr rfl fun o _ =>
    Cert.Flow.klin_lft X c _ _ (Cert.Flow.Weights.wT (F := Ideal) PA) (Cert.Flow.Weights.wc_lft PA PB) (Cert.Flow.Weights.wx_lft PA PB) b o

variable (m : (ℓ : Loc nD τ sig) → Buf (Elt Ideal) ℓ) (ρ : Dev nD → PrngReg)

/-- The first output array after the run, as a function of the arguments. -/
theorem final_z (c : Dev nD) :
    (dats m 0 c).arrAt 4 cfg0.N
      = Cert.Flow.flowZ (m ((c : Thread nD τ).loc main_arg0)) (m ((c : Thread nD τ).loc main_arg1))
          (Cert.ReferenceIdeal.Read.val_main_v12 (F := Ideal) (m ((c : Thread nD τ).loc main_arg2)))
          (Cert.ReferenceIdeal.Read.val_main_v15 (F := Ideal) (m ((c : Thread nD τ).loc main_arg3))) := by
  refine (Cert.Flow.Blocks.final4 m c).trans ?_
  rw [V_main_arg0 m c, V_main_arg1 m c, Cert.Flow.Weights.V_wc m c, Cert.Flow.Weights.V_wx m c]
  exact kZ_eq _ _ _ _

/-- The program's second result after the run, as a function of the arguments. -/
theorem final_l (c : Dev nD) :
    (Pipeline.afterTail₀ cfgs (dats m) 0 (V0 m) [hostOps1] c main_v23 : S131072.Idx → EReal)
      = Cert.Flow.flowL (m ((c : Thread nD τ).loc main_arg0)) (m ((c : Thread nD τ).loc main_arg1))
          (Cert.ReferenceIdeal.Read.val_main_v12 (F := Ideal) (m ((c : Thread nD τ).loc main_arg2))) := by
  refine (Cert.Flow.Tail.tail_logdet m c _ (Cert.Flow.Blocks.final5 m c)).trans ?_
  rw [V_main_arg0 m c, V_main_arg1 m c, Cert.Flow.Weights.V_wc m c, Cert.Flow.Weights.V_wx m c]
  exact kL_eq _ _ _ _

/-- Every weakly fair execution of the idealized kernel's program terminates with its two results at the affine
    autoregressive map of the arguments and the arguments unchanged. -/
theorem run : θ_run defs (onTc (τ := τ) (main (F := Ideal))) ⟨m, fun _ => 0, ρ⟩ fun r => ∀ c : Dev nD,
      r.2.mem ((c.tc : Thread nD τ).loc main_v22_0)
        = Cert.Flow.flowZ (m ((c : Thread nD τ).loc main_arg0)) (m ((c : Thread nD τ).loc main_arg1))
            (Cert.ReferenceIdeal.Read.val_main_v12 (F := Ideal) (m ((c : Thread nD τ).loc main_arg2)))
            (Cert.ReferenceIdeal.Read.val_main_v15 (F := Ideal) (m ((c : Thread nD τ).loc main_arg3)))
      ∧ r.2.mem ((c.tc : Thread nD τ).loc main_v23)
        = Cert.Flow.flowL (m ((c : Thread nD τ).loc main_arg0)) (m ((c : Thread nD τ).loc main_arg1))
            (Cert.ReferenceIdeal.Read.val_main_v12 (F := Ideal) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 4).trans (final_z m c),
     ((h c).2 main_v23 (Pipeline.mem_restRefs_of main_v23 (by decide) (by decide))).trans (final_l m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.Flow.KernelRun

end
-- ==== Proof.lean ====
/-
  The certificate's claims.

  Over the extended reals the kernel's program and the reference compute one function of the argument arrays
  `X : [131072, 512]`, `c : [131072, 64]`, `PA PB : [512, 576]`: with `M[r, d] = (d < 64 + r)` the autoregressive mask and
  `W P = (P · M)ᵀ`,
      z[b, o]   = X[b, o] · exp (lin WA b o) + lin WB b o,        logdet[b] = ∑ o, lin WA b o,
      lin W b o = ∑ k < 64, c[b, k] · W[k, o] + ∑ k < 512, X[b, k] · W[64 + k, o]          (Proof/Spec.lean).
  The reference contracts the joined rows `(c | X)` against `W` in one sum over 576 columns; the kernel contracts
  `c` and `X` separately against the two row ranges of `W` (joined for `PA` and `PB` side by side) and adds.  The
  two agree because a sum over 576 terms is the sum of its first 64 and its last 512 — associativity and
  commutativity of addition on the extended reals, which needs no finiteness: the precondition is never opened.
  The reference side is Proof/RefFlow.lean; the kernel side Proof/BlockFlow.lean (the body's stored values at an
  index), Proof/Blocks.lean (blocks to arrays), Proof/Weights.lean (the joined weight arrays and the two masks),
  Proof/Tail.lean (the final reshape) and Proof/KernelRun.lean (the run).
-/
import proofs.«144056_j62895501083197_2_alg».proof.Defs
import proofs.«144056_j62895501083197_2_alg».proof.Proof.Gen.Kernel
import proofs.«144056_j62895501083197_2_alg».proof.Proof.Gen.Kernel.Skeleton
import proofs.«144056_j62895501083197_2_alg».proof.Proof.Gen.Kernel.Launch
import proofs.«144056_j62895501083197_2_alg».proof.Proof.Gen.Kernel.Points
import proofs.«144056_j62895501083197_2_alg».proof.Proof.Gen.Kernel.Frame
import proofs.«144056_j62895501083197_2_alg».proof.Proof.Gen.KernelIdeal
import proofs.«144056_j62895501083197_2_alg».proof.Proof.Gen.KernelIdeal.Skeleton
import proofs.«144056_j62895501083197_2_alg».proof.Proof.Gen.KernelIdeal.Launch
import proofs.«144056_j62895501083197_2_alg».proof.Proof.Gen.KernelIdeal.Points
import proofs.«144056_j62895501083197_2_alg».proof.Proof.Gen.KernelIdeal.Frame
import proofs.«144056_j62895501083197_2_alg».proof.Proof.Gen.ReferenceIdeal
import proofs.«144056_j62895501083197_2_alg».proof.Proof.Gen.Pre_finite_inputs
import proofs.«144056_j62895501083197_2_alg».proof.Proof.Gen.ReferenceIdeal.Run
import proofs.«144056_j62895501083197_2_alg».proof.Proof.Gen.ReferenceIdeal.Read
import proofs.«144056_j62895501083197_2_alg».proof.Proof.Spec
import proofs.«144056_j62895501083197_2_alg».proof.Proof.RefFlow
import proofs.«144056_j62895501083197_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel's program runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized kernel's. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- And the reference: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- Both programs end with `z` and `logdet` of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.Flow.KernelRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.Flow.Ref.ref_z, (hagree c).1, (hagree c).2.1, (hagree c).2.2.1, (hagree c).2.2.2]
  · rw [Cert.ReferenceIdeal.Read.val_main_v20_eq, Cert.Flow.Ref.ref_l, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
